-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg7 : FVec F S512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S50000x512 .f32) (main_arg1 : IVec S2x400000 32) (main_arg2 : IVec S2x400000 32) (main_arg3 : IVec S2x400000 32) (main_arg4 : FVec F S512x512 .f32) (main_arg5 : FVec F S512x512 .f32) (main_arg6 : FVec F S512x512 .f32) (main_arg7 : FVec F S512 .f32) (main_arg8 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg6
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg7 main_arg8 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1536x512 : Shape := ⟨2, ![1536, 512]⟩
abbrev S512x1536 : Shape := ⟨2, ![512, 1536]⟩
abbrev S50000x1536 : Shape := ⟨2, ![50000, 1536]⟩
abbrev S1000x512 : Shape := ⟨2, ![1000, 512]⟩
abbrev S1000x1536 : Shape := ⟨2, ![1000, 1536]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S400000x1 : Shape := ⟨2, ![400000, 1]⟩
abbrev S400000x512 : Shape := ⟨2, ![400000, 512]⟩
abbrev S50000x1 : Shape := ⟨2, ![50000, 1]⟩
abbrev S1x512 : Shape := ⟨2, ![1, 512]⟩

abbrev nBuf : Space → Nat
  | .hbm => 167
  | .vmem => 5
  | .smem => 0
  | _ => 0

abbrev hbmTy0_0 (i : Nat) : BufTy := match i % 128 with
  | 0 => ⟨S50000x512, .f32⟩
  | 1 => ⟨S2x400000, .i32⟩
  | 2 => ⟨S2x400000, .i32⟩
  | 3 => ⟨S2x400000, .i32⟩
  | 4 => ⟨S512x512, .f32⟩
  | 5 => ⟨S512x512, .f32⟩
  | 6 => ⟨S512x512, .f32⟩
  | 7 => ⟨S512, .f32⟩
  | 8 => ⟨S512, .f32⟩
  | 9 => ⟨S1536x512, .f32⟩
  | 10 => ⟨S512x1536, .f32⟩
  | 11 => ⟨S512x1536, .bf16⟩
  | 12 => ⟨S50000x1536, .f32⟩
  | 13 => ⟨S50000x512, .f32⟩
  | 14 => ⟨S50000x512, .f32⟩
  | 15 => ⟨S50000x512, .f32⟩
  | 16 => ⟨S50000, .i32⟩
  | 17 => ⟨S1x400000, .i32⟩
  | 18 => ⟨S400000, .i32⟩
  | 19 => ⟨S450000, .i32⟩
  | 20 => ⟨S1x400000, .i32⟩
  | 21 => ⟨S400000, .i32⟩
  | 22 => ⟨S450000, .i32⟩
  | 23 => ⟨S_, .f32⟩
  | 24 => ⟨S450000, .f32⟩
  | 25 => ⟨S_, .f32⟩
  | 26 => ⟨S50000, .f32⟩
  | 27 => ⟨S450000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S450000, .i32⟩
  | 41 => ⟨S450000, .i1⟩
  | 42 => ⟨S_, .i32⟩
  | 43 => ⟨S450000, .i32⟩
  | 44 => ⟨S450000, .i32⟩
  | 45 => ⟨S450000, .i32⟩
  | 46 => ⟨S450000x1, .i32⟩
  | 47 => ⟨S450000, .f32⟩
  | 48 => ⟨S_, .i32⟩
  | 49 => ⟨S450000, .i32⟩
  | 50 => ⟨S450000, .i1⟩
  | 51 => ⟨S_, .i32⟩
  | 52 => ⟨S450000, .i32⟩
  | 53 => ⟨S450000, .i32⟩
  | 54 => ⟨S450000, .i32⟩
  | 55 => ⟨S450000x1, .i32⟩
  | 56 => ⟨S450000, .f32⟩
  | 57 => ⟨S450000, .f32⟩
  | 58 => ⟨S_, .i32⟩
  | 59 => ⟨S450000, .i32⟩
  | 60 => ⟨S450000, .i1⟩
  | 61 => ⟨S_, .i32⟩
  | 62 => ⟨S450000, .i32⟩
  | 63 => ⟨S450000, .i32⟩
  | 64 => ⟨S450000, .i32⟩
  | 65 => ⟨S450000x1, .i32⟩
  | 66 => ⟨S450000x512, .f32⟩
  | 67 => ⟨S450000x1, .f32⟩
  | 68 => ⟨S450000x512, .f32⟩
  | 69 => ⟨S450000x512, .f32⟩
  | 70 => ⟨S_, .f32⟩
  | 71 => ⟨S50000x512, .f32⟩
  | 72 => ⟨S450000x1, .i32⟩
  | 73 => ⟨S50000x512, .f32⟩
  | 74 => ⟨S1x400000, .i32⟩
  | 75 => ⟨S400000, .i32⟩
  | 76 => ⟨S1x400000, .i32⟩
  | 77 => ⟨S400000, .i32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x512, .f32⟩
  | 87 => ⟨S_, .f32⟩
  | 88 => ⟨S50000x512, .f32⟩
  | 89 => ⟨S400000x1, .i32⟩
  | 90 => ⟨S50000x512, .f32⟩
  | 91 => ⟨S_, .f32⟩
  | 92 => ⟨S400000, .f32⟩
  | 93 => ⟨S_, .f32⟩
  | 94 => ⟨S50000, .f32⟩
  | 95 => ⟨S400000x1, .i32⟩
  | 96 => ⟨S50000, .f32⟩
  | 97 => ⟨S_, .f32⟩
  | 98 => ⟨S_, .f32⟩
  | 99 => ⟨S50000, .f32⟩
  | 100 => ⟨S50000, .f32⟩
  | 101 => ⟨S50000x1, .f32⟩
  | 102 => ⟨S50000x512, .f32⟩
  | 103 => ⟨S50000x512, .f32⟩
  | 104 => ⟨S50000x512, .f32⟩
  | 105 => ⟨S1x400000, .i32⟩
  | 106 => ⟨S400000, .i32⟩
  | 107 => ⟨S1x400000, .i32⟩
  | 108 => ⟨S400000, .i32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x512, .f32⟩
  | 118 => ⟨S1x512, .f32⟩
  | 119 => ⟨S400000x512, .f32⟩
  | 120 => ⟨S400000x512, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S50000x512, .f32⟩

abbrev hbmTy0_1 (i : Nat) : BufTy := match i % 128 with
  | 0 => ⟨S400000x1, .i32⟩
  | 1 => ⟨S400000x512, .f32⟩
  | 2 => ⟨S1x512, .f32⟩
  | 3 => ⟨S400000x512, .f32⟩
  | 4 => ⟨S400000x512, .f32⟩
  | 5 => ⟨S400000x512, .f32⟩
  | 6 => ⟨S_, .f32⟩
  | 7 => ⟨S400000, .f32⟩
  | 8 => ⟨S_, .f32⟩
  | 9 => ⟨S400000, .f32⟩
  | 10 => ⟨S400000, .f32⟩
  | 11 => ⟨S400000, .f32⟩
  | 12 => ⟨S400000, .f32⟩
  | 13 => ⟨S_, .f32⟩
  | 14 => ⟨S400000, .f32⟩
  | 15 => ⟨S400000, .f32⟩
  | 16 => ⟨S_, .f32⟩
  | 17 => ⟨S400000, .f32⟩
  | 18 => ⟨S400000, .f32⟩
  | 19 => ⟨S400000x1, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x512, .f32⟩
  | 29 => ⟨S400000x512, .f32⟩
  | 30 => ⟨S400000x512, .f32⟩
  | 31 => ⟨S_, .f32⟩
  | 32 => ⟨S50000x512, .f32⟩
  | 33 => ⟨S400000x1, .i32⟩
  | 34 => ⟨S50000x512, .f32⟩
  | 35 => ⟨S50000x512, .f32⟩
  | 36 => ⟨S1x512, .f32⟩
  | 37 => ⟨S50000x512, .f32⟩
  | 38 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x1536, .bf16⟩
  | .local _ .vmem, ⟨3, _⟩ => ⟨S1000x1536, .f32⟩
  | .local _ .vmem, ⟨4, _⟩ => ⟨S1000x1536, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_call1_v0 : Ref sig .tc := ⟨.hbm, 98, rfl⟩
abbrev main_call1_v1 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_18 : Ref sig .tc := ⟨.hbm, 121, rfl⟩
abbrev main_v88 : Ref sig .tc := ⟨.hbm, 122, rfl⟩
abbrev main_v89 : Ref sig .tc := ⟨.hbm, 123, rfl⟩
abbrev main_c_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_22 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_24 : Ref sig .tc := ⟨.hbm, 148, rfl⟩
abbrev main_v109 : Ref sig .tc := ⟨.hbm, 149, rfl⟩
abbrev main_v110 : Ref sig .tc := ⟨.hbm, 150, rfl⟩
abbrev main_c_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S512x512_S512x512_S512x512_S1536x512_d0 : Shape.Concatenates [S512x512, S512x512, S512x512] S1536x512 0
  transposes_S1536x512_S512x1536_1_0 : S1536x512.Transposes [1, 0] S512x1536
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1000x1536_S1000x1536_0_0 : ∀ a, (![0, 0] : Fin 2 → Nat) a + S1000x1536.size a ≤ S1000x1536.size a
  h_S1000x1536 : 0 < S1000x1536.numel
  slices_S50000x1536_S50000x512_0_0 : S50000x1536.Slices ![0, 0] S50000x512
  slices_S50000x1536_S50000x512_0_512 : S50000x1536.Slices ![0, 512] S50000x512
  slices_S50000x1536_S50000x512_0_1024 : S50000x1536.Slices ![0, 1024] S50000x512
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S_S400000 : S_.BroadcastsInDim S400000 (![] : Fin 0 → Fin S400000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S400000x512_0_1 : S1x512.BroadcastsInDim S400000x512 (![0, 1] : Fin 2 → Fin S400000x512.rank)
  reducesTo_S400000x512_S400000_d1 : S400000x512.ReducesTo [1] S400000
  h_S_ : 0 < S_.numel
  bcast_S400000x1_S400000x512_0_1 : S400000x1.BroadcastsInDim S400000x512 (![0, 1] : Fin 2 → Fin S400000x512.rank)
  bcast_S1x512_S50000x512_0_1 : S1x512.BroadcastsInDim S50000x512 (![0, 1] : Fin 2 → Fin S50000x512.rank)
  dot_S1000x512_S512x1536_S1000x1536_1_0_0_1_n_n_wf : DotDims.WF S1000x512 S512x1536 S1000x1536 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1536.size a ≤ S50000x1536.size a
  hwx0_2 : ∀ i : grid0.Coords, EltTy.bits .f32 = 32 ∨ (Rect.block (s := S50000x1536) S1000x1536.size (cc0_transform_2 i) (hinb0_2 i)).WholeWords (EltTy.packing .f32)

variable [Facts₀]

def dot_S1000x512_S512x1536_S1000x1536_1_0_0_1_n_n : DotDims S1000x512 S512x1536 S1000x1536 where
  lhsContracting := [1]
  rhsContracting := [0]
  lhsNonContracting := [0]
  rhsNonContracting := [1]
  lhsBatch := []
  rhsBatch := []
  wf := dot_S1000x512_S512x1536_S1000x1536_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1000x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S400000x1 : Shape := ⟨2, ![400000, 1]⟩
abbrev S400000x512 : Shape := ⟨2, ![400000, 512]⟩
abbrev S50000x1 : Shape := ⟨2, ![50000, 1]⟩
abbrev S1x512 : Shape := ⟨2, ![1, 512]⟩

abbrev nBuf : Space → Nat
  | .hbm => 166
  | .vmem => 0
  | .smem => 0
  | _ => 0

abbrev hbmTy0_0 (i : Nat) : BufTy := match i % 128 with
  | 0 => ⟨S50000x512, .f32⟩
  | 1 => ⟨S2x400000, .i32⟩
  | 2 => ⟨S2x400000, .i32⟩
  | 3 => ⟨S2x400000, .i32⟩
  | 4 => ⟨S512x512, .f32⟩
  | 5 => ⟨S512x512, .f32⟩
  | 6 => ⟨S512x512, .f32⟩
  | 7 => ⟨S512, .f32⟩
  | 8 => ⟨S512, .f32⟩
  | 9 => ⟨S512x512, .f32⟩
  | 10 => ⟨S50000x512, .f32⟩
  | 11 => ⟨S512x512, .f32⟩
  | 12 => ⟨S50000x512, .f32⟩
  | 13 => ⟨S512x512, .f32⟩
  | 14 => ⟨S50000x512, .f32⟩
  | 15 => ⟨S50000, .i32⟩
  | 16 => ⟨S1x400000, .i32⟩
  | 17 => ⟨S400000, .i32⟩
  | 18 => ⟨S450000, .i32⟩
  | 19 => ⟨S1x400000, .i32⟩
  | 20 => ⟨S400000, .i32⟩
  | 21 => ⟨S450000, .i32⟩
  | 22 => ⟨S_, .f32⟩
  | 23 => ⟨S450000, .f32⟩
  | 24 => ⟨S_, .f32⟩
  | 25 => ⟨S50000, .f32⟩
  | 26 => ⟨S450000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S450000, .i32⟩
  | 40 => ⟨S450000, .i1⟩
  | 41 => ⟨S_, .i32⟩
  | 42 => ⟨S450000, .i32⟩
  | 43 => ⟨S450000, .i32⟩
  | 44 => ⟨S450000, .i32⟩
  | 45 => ⟨S450000x1, .i32⟩
  | 46 => ⟨S450000, .f32⟩
  | 47 => ⟨S_, .i32⟩
  | 48 => ⟨S450000, .i32⟩
  | 49 => ⟨S450000, .i1⟩
  | 50 => ⟨S_, .i32⟩
  | 51 => ⟨S450000, .i32⟩
  | 52 => ⟨S450000, .i32⟩
  | 53 => ⟨S450000, .i32⟩
  | 54 => ⟨S450000x1, .i32⟩
  | 55 => ⟨S450000, .f32⟩
  | 56 => ⟨S450000, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000x512, .f32⟩
  | 66 => ⟨S450000x1, .f32⟩
  | 67 => ⟨S450000x512, .f32⟩
  | 68 => ⟨S450000x512, .f32⟩
  | 69 => ⟨S_, .f32⟩
  | 70 => ⟨S50000x512, .f32⟩
  | 71 => ⟨S450000x1, .i32⟩
  | 72 => ⟨S50000x512, .f32⟩
  | 73 => ⟨S1x400000, .i32⟩
  | 74 => ⟨S400000, .i32⟩
  | 75 => ⟨S1x400000, .i32⟩
  | 76 => ⟨S400000, .i32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x512, .f32⟩
  | 86 => ⟨S_, .f32⟩
  | 87 => ⟨S50000x512, .f32⟩
  | 88 => ⟨S400000x1, .i32⟩
  | 89 => ⟨S50000x512, .f32⟩
  | 90 => ⟨S_, .f32⟩
  | 91 => ⟨S400000, .f32⟩
  | 92 => ⟨S_, .f32⟩
  | 93 => ⟨S50000, .f32⟩
  | 94 => ⟨S400000x1, .i32⟩
  | 95 => ⟨S50000, .f32⟩
  | 96 => ⟨S_, .f32⟩
  | 97 => ⟨S_, .f32⟩
  | 98 => ⟨S50000, .f32⟩
  | 99 => ⟨S50000, .f32⟩
  | 100 => ⟨S50000x1, .f32⟩
  | 101 => ⟨S50000x512, .f32⟩
  | 102 => ⟨S50000x512, .f32⟩
  | 103 => ⟨S50000x512, .f32⟩
  | 104 => ⟨S1x400000, .i32⟩
  | 105 => ⟨S400000, .i32⟩
  | 106 => ⟨S1x400000, .i32⟩
  | 107 => ⟨S400000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x512, .f32⟩
  | 117 => ⟨S1x512, .f32⟩
  | 118 => ⟨S400000x512, .f32⟩
  | 119 => ⟨S400000x512, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S50000x512, .f32⟩

abbrev hbmTy0_1 (i : Nat) : BufTy := match i % 128 with
  | 0 => ⟨S400000x512, .f32⟩
  | 1 => ⟨S1x512, .f32⟩
  | 2 => ⟨S400000x512, .f32⟩
  | 3 => ⟨S400000x512, .f32⟩
  | 4 => ⟨S400000x512, .f32⟩
  | 5 => ⟨S_, .f32⟩
  | 6 => ⟨S400000, .f32⟩
  | 7 => ⟨S_, .f32⟩
  | 8 => ⟨S400000, .f32⟩
  | 9 => ⟨S400000, .f32⟩
  | 10 => ⟨S400000, .f32⟩
  | 11 => ⟨S400000, .f32⟩
  | 12 => ⟨S_, .f32⟩
  | 13 => ⟨S400000, .f32⟩
  | 14 => ⟨S400000, .f32⟩
  | 15 => ⟨S_, .f32⟩
  | 16 => ⟨S400000, .f32⟩
  | 17 => ⟨S400000, .f32⟩
  | 18 => ⟨S400000x1, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x512, .f32⟩
  | 28 => ⟨S400000x512, .f32⟩
  | 29 => ⟨S400000x512, .f32⟩
  | 30 => ⟨S_, .f32⟩
  | 31 => ⟨S50000x512, .f32⟩
  | 32 => ⟨S400000x1, .i32⟩
  | 33 => ⟨S50000x512, .f32⟩
  | 34 => ⟨S50000x512, .f32⟩
  | 35 => ⟨S1x512, .f32⟩
  | 36 => ⟨S50000x512, .f32⟩
  | 37 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_c_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_24 : Ref sig .tc := ⟨.hbm, 147, rfl⟩
abbrev main_v108 : Ref sig .tc := ⟨.hbm, 148, rfl⟩
abbrev main_v109 : Ref sig .tc := ⟨.hbm, 149, rfl⟩
abbrev main_c_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩

abbrev nD : Nat := 1
abbrev τ : Topo := Topo.v7x

variable {F : FTy → Type} [FloatOps F]

class Facts₀ : Prop where
  transposes_S512x512_S512x512_1_0 : S512x512.Transposes [1, 0] S512x512
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S_S400000 : S_.BroadcastsInDim S400000 (![] : Fin 0 → Fin S400000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S400000x512_0_1 : S1x512.BroadcastsInDim S400000x512 (![0, 1] : Fin 2 → Fin S400000x512.rank)
  reducesTo_S400000x512_S400000_d1 : S400000x512.ReducesTo [1] S400000
  h_S_ : 0 < S_.numel
  bcast_S400000x1_S400000x512_0_1 : S400000x1.BroadcastsInDim S400000x512 (![0, 1] : Fin 2 → Fin S400000x512.rank)
  bcast_S1x512_S50000x512_0_1 : S1x512.BroadcastsInDim S50000x512 (![0, 1] : Fin 2 → Fin S50000x512.rank)
  dot_S50000x512_S512x512_S50000x512_1_0_0_1_n_n_wf : DotDims.WF S50000x512 S512x512 S50000x512 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf

class Facts : Prop extends Facts₀ where

variable [Facts]
-- ==== Proof.FrameK.lean ====
/-
  The frame of the program: every weakly fair execution of @main terminates, nothing faults, and the nine argument
  arrays end as they were launched — at any float instance.

  @main is three host lines (the three weight matrices joined along their rows, transposed, rounded to bf16), one
  grid of 50 points, and 154 host lines after it. At grid point t the body reads rows 1000·t … 1000·t + 999 of the
  first argument (a 1000 × 512 block), reads the whole 512 × 1536 joined weight matrix, multiplies them on the matrix
  unit into a zero accumulator and stores the 1000 × 1536 product as block t of the result; it also loads the output
  buffer once, a value it never uses. So after the body the output window's buffer holds one piece — the product of
  the two input blocks — covering it whole, the two input buffers are as they were, and the launch theorem for a
  grid followed by host lines gives the run with every array named. Each line after the grid writes its own result
  buffer only, and none of those is an argument or an array the grid stages (the eleven buffers "held" below): that
  is what lets the lines run after the grid and what keeps the arguments.
-/
import proofs.«158807_j15814069584045_1_alg».proof.Proof.Gen.Kernel.Launch
import proofs.«158807_j15814069584045_1_alg».proof.Proof.Gen.Kernel.Skeleton
import proofs.«158807_j15814069584045_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The host lines after the grid, stretch by stretch: @main's own lines and, in their places, the lines of the two
    small functions it calls. -/
abbrev tailOps : List (List (HloOp τ sig (Elt F))) := [hostOps1, hostOps1_1, hostOps1_2, hostOps1_3, hostOps1_4]

/-- A core's buffer contents when the grid is entered: after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The buffers no line after the grid writes: the nine arguments, and the joined weights and the grid's result, which
    the grid stages. -/
abbrev held : List (Ref sig .tc) :=
  [main_arg0, main_arg1, main_arg2, main_arg3, main_arg4, main_arg5, main_arg6, main_arg7, main_arg8, main_v2, main_v3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- A held buffer is not the result buffer y of a line when every held reference differs from y. -/
theorem held_ne {y : Ref sig .tc} (h : ∀ b ∈ held, b ≠ y) :
    ∀ b ∈ held, Proc.devRef (τ := τ) .tc b ≠ Proc.devRef .tc y :=
  fun b hb => StableHlo.devRef_ne_of_ne (h b hb)

/-- Each line of a stretch after the grid writes a buffer that is not held. -/
theorem hostOps1_late : (hostOps1 : List (HloOp τ sig (Elt F))).Forall fun op =>
    ∀ b ∈ held, Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_1_late : (hostOps1_1 : List (HloOp τ sig (Elt F))).Forall fun op =>
    ∀ b ∈ held, Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_2_late : (hostOps1_2 : List (HloOp τ sig (Elt F))).Forall fun op =>
    ∀ b ∈ held, Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_3_late : (hostOps1_3 : List (HloOp τ sig (Elt F))).Forall fun op =>
    ∀ b ∈ held, Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_4_late : (hostOps1_4 : List (HloOp τ sig (Elt F))).Forall fun op =>
    ∀ b ∈ held, Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)

/-- No line after the grid writes a held buffer. -/
theorem tail_late : ∀ ops ∈ (tailOps : List (List (HloOp τ sig (Elt F)))), ∀ op ∈ ops,
    ∀ b ∈ held, Proc.devRef .tc b ∉ op.writes := by
  intro ops hops op hop
  simp only [List.mem_cons, List.mem_nil_iff, or_false] at hops
  rcases hops with rfl | rfl | rfl | rfl | rfl
  · exact (List.forall_iff_forall_mem.mp hostOps1_late) op hop
  · exact (List.forall_iff_forall_mem.mp hostOps1_1_late) op hop
  · exact (List.forall_iff_forall_mem.mp hostOps1_2_late) op hop
  · exact (List.forall_iff_forall_mem.mp hostOps1_3_late) op hop
  · exact (List.forall_iff_forall_mem.mp hostOps1_4_late) op hop

/-- The arrays the grid stages are held. -/
theorem arr_held : ∀ w, Pipeline.arrRef spec0 w ∈ held := by decide

/-- @main is the host lines before the grid, the grid, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the grid touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array the grid stages. -/
theorem sfx_keeps : ∀ ops ∈ (tailOps : List (List (HloOp τ sig (Elt F)))), ∀ op ∈ ops,
    ∀ w, Proc.devRef .tc (Pipeline.arrRef spec0 w) ∉ op.writes :=
  fun ops hops op hop w => tail_late ops hops op hop _ (arr_held w)

/-! ## The argument arrays are written by no host line -/

/-- The three host lines before the grid write their own results: the grid finds a held buffer other than the
    joined weights (their product) as it was launched. -/
theorem V_of_arg (c : Dev nD) (b : Ref sig .tc) (hb : b ∈ held) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_⟩
    · exact held_ne (y := main_v0) (by decide) b hb
    · exact held_ne (y := main_v1) (by decide) b hb
    · exact StableHlo.devRef_ne_of_ne h2))

/-- A held buffer that is no array of the grid ends, after the lines that follow the grid, as the grid found it. -/
theorem afterTail_held (dats : (p : Fin 1) → (c : Dev nD) → Dat τ (Elt F) Unit ℕ (UR sig nD τ) ℕ (cfgs p) c) (c : Dev nD)
    (b : Ref sig .tc) (hb : b ∈ held) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (by
      intro op hop
      obtain ⟨ops, hops, hop'⟩ := List.mem_flatten.mp hop
      exact tail_late ops hops op hop' b hb),
    Pipeline.withArrays_of_ne _ c (V0 m c) _ b hne]

/-! ## The windows' blocks -/

/-- Window w's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev r0_0 : Rect S1000x512 := Rect.unit (s := S1000x512) ![0, 0] S1000x512.size inb_S1000x512_S1000x512_0_0
abbrev r0_1 : Rect S512x1536 := Rect.unit (s := S512x1536) ![0, 0] S512x1536.size inb_S512x1536_S512x1536_0_0
abbrev r0_2 : Rect S1000x1536 := Rect.unit (s := S1000x1536) ![0, 0] S1000x1536.size inb_S1000x1536_S1000x1536_0_0

/-- The output window's buffer after the body, from the two input blocks: one store, of the matrix unit's product,
    through the whole rectangle. -/
def out0_2 (x0 : Vec F S1000x512 .f32) (x1 : Vec F S512x1536 .bf16) : Vec F S1000x1536 .f32 :=
  View.canon [⟨r0_2, k0_pay1 (View.ld x0 r0_0) (View.ld x1 r0_1)⟩]

/-- The one store covers the buffer. -/
theorem cover0_2 (p0 : Vec F S1000x1536 .f32) (y : S1000x1536.Idx) :
    ∃ pc ∈ ([⟨r0_2, p0⟩] : List (View.Piece (Elt F) S1000x1536 .f32)), y ∈ pc.1.set :=
  View.cover_of_tiled [⟨r0_2, p0⟩] S1000x1536.size (by rfl) y

/-! ## The body's triple -/

set_option maxHeartbeats 1000000 in
/-- The body on whole staging memrefs, the inputs' at contents x0, x1 and the output's at anything, runs to the
    continuation holding the inputs' as they were and the output's at the product of the two. -/
theorem sound_kernel (c : Dev nD) (E : Set ℕ) (i : grid0.Coords)
    (arg1 : Memref sig .tc .vmem S1000x512 .f32) (harg1 : arg1.IsWhole)
    (arg2 : Memref sig .tc .vmem S512x1536 .bf16) (harg2 : arg2.IsWhole)
    (arg3 : Memref sig .tc .vmem S1000x1536 .f32) (harg3 : arg3.IsWhole)
    (x0 : Vec F S1000x512 .f32) (x1 : Vec F S512x1536 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The grid's proof data -/

/-- On core c: the arrays as the grid finds them; after the body at point t each input's buffer at its block and
    the output's at the product of the two input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array the grid stages at what
    the grid's write-backs leave and every other unscoped buffer as the lines after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument the grid does not stage ends as launched. -/
theorem kept_rest (c : Dev nD) (b : Ref sig .tc) (hb : b ∈ held) (h2 : b ≠ main_v2) (hne : ∀ w, Pipeline.arrRef spec0 w ≠ b)
    (r : PUnit × MemSt nD τ sig (Elt F))
    (h : Pipeline.FramePost cfgs (dats m) 0 (Pipeline.afterTail₀ cfgs (dats m) 0 (V0 m) tailOps) r)
    (hr : b ∈ Pipeline.restRefs sig spec0) :
    r.2.mem ((c.tc : Thread nD τ).loc b) = m ((c.tc : Thread nD τ).loc b) :=
  ((h c).2 b hr).trans ((afterTail_held m (dats m) c b hb hne).trans (V_of_arg m c b hb h2))

/-- THE FRAME, at any float instance: the run ends with the nine argument arrays as launched. The first argument is
    staged by the grid as an input, never written back; the other eight bypass the grid. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 0).trans (((dats m 0 c).arrAt_in 0 rfl _).trans ((A_eq m c 0).trans (V_of_arg m c main_arg0 (by decide) (by decide)))),
     kept_rest m c main_arg1 (by decide) (by decide) (by decide) r h (Pipeline.mem_restRefs_of main_arg1 (by decide) (by decide)),
     kept_rest m c main_arg2 (by decide) (by decide) (by decide) r h (Pipeline.mem_restRefs_of main_arg2 (by decide) (by decide)),
     kept_rest m c main_arg3 (by decide) (by decide) (by decide) r h (Pipeline.mem_restRefs_of main_arg3 (by decide) (by decide)),
     kept_rest m c main_arg4 (by decide) (by decide) (by decide) r h (Pipeline.mem_restRefs_of main_arg4 (by decide) (by decide)),
     kept_rest m c main_arg5 (by decide) (by decide) (by decide) r h (Pipeline.mem_restRefs_of main_arg5 (by decide) (by decide)),
     kept_rest m c main_arg6 (by decide) (by decide) (by decide) r h (Pipeline.mem_restRefs_of main_arg6 (by decide) (by decide)),
     kept_rest m c main_arg7 (by decide) (by decide) (by decide) r h (Pipeline.mem_restRefs_of main_arg7 (by decide) (by decide)),
     kept_rest m c main_arg8 (by decide) (by decide) (by decide) r h (Pipeline.mem_restRefs_of main_arg8 (by decide) (by decide))⟩)
    (run_main m ρ)

end Cert.Kernel.Hand

end
-- ==== Proof.FrameKI.lean ====
/-
  The frame of the program: every weakly fair execution of @main terminates, nothing faults, and the nine argument
  arrays end as they were launched — at any float instance.

  @main is three host lines (the three weight matrices joined along their rows, transposed, rounded to bf16), one
  grid of 50 points, and 154 host lines after it. At grid point t the body reads rows 1000·t … 1000·t + 999 of the
  first argument (a 1000 × 512 block), reads the whole 512 × 1536 joined weight matrix, multiplies them on the matrix
  unit into a zero accumulator and stores the 1000 × 1536 product as block t of the result; it also loads the output
  buffer once, a value it never uses. So after the body the output window's buffer holds one piece — the product of
  the two input blocks — covering it whole, the two input buffers are as they were, and the launch theorem for a
  grid followed by host lines gives the run with every array named. Each line after the grid writes its own result
  buffer only, and none of those is an argument or an array the grid stages (the eleven buffers "held" below): that
  is what lets the lines run after the grid and what keeps the arguments.
-/
import proofs.«158807_j15814069584045_1_alg».proof.Proof.Gen.KernelIdeal.Launch
import proofs.«158807_j15814069584045_1_alg».proof.Proof.Gen.KernelIdeal.Skeleton
import proofs.«158807_j15814069584045_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

/-- The host lines after the grid, stretch by stretch: @main's own lines and, in their places, the lines of the two
    small functions it calls. -/
abbrev tailOps : List (List (HloOp τ sig (Elt F))) := [hostOps1, hostOps1_1, hostOps1_2, hostOps1_3, hostOps1_4]

/-- A core's buffer contents when the grid is entered: after the three host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The buffers no line after the grid writes: the nine arguments, and the joined weights and the grid's result, which
    the grid stages. -/
abbrev held : List (Ref sig .tc) :=
  [main_arg0, main_arg1, main_arg2, main_arg3, main_arg4, main_arg5, main_arg6, main_arg7, main_arg8, main_v2, main_v3]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- A held buffer is not the result buffer y of a line when every held reference differs from y. -/
theorem held_ne {y : Ref sig .tc} (h : ∀ b ∈ held, b ≠ y) :
    ∀ b ∈ held, Proc.devRef (τ := τ) .tc b ≠ Proc.devRef .tc y :=
  fun b hb => StableHlo.devRef_ne_of_ne (h b hb)

/-- Each line of a stretch after the grid writes a buffer that is not held. -/
theorem hostOps1_late : (hostOps1 : List (HloOp τ sig (Elt F))).Forall fun op =>
    ∀ b ∈ held, Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_1_late : (hostOps1_1 : List (HloOp τ sig (Elt F))).Forall fun op =>
    ∀ b ∈ held, Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_2_late : (hostOps1_2 : List (HloOp τ sig (Elt F))).Forall fun op =>
    ∀ b ∈ held, Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_3_late : (hostOps1_3 : List (HloOp τ sig (Elt F))).Forall fun op =>
    ∀ b ∈ held, Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)
theorem hostOps1_4_late : (hostOps1_4 : List (HloOp τ sig (Elt F))).Forall fun op =>
    ∀ b ∈ held, Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact held_ne (by decide)

/-- No line after the grid writes a held buffer. -/
theorem tail_late : ∀ ops ∈ (tailOps : List (List (HloOp τ sig (Elt F)))), ∀ op ∈ ops,
    ∀ b ∈ held, Proc.devRef .tc b ∉ op.writes := by
  intro ops hops op hop
  simp only [List.mem_cons, List.mem_nil_iff, or_false] at hops
  rcases hops with rfl | rfl | rfl | rfl | rfl
  · exact (List.forall_iff_forall_mem.mp hostOps1_late) op hop
  · exact (List.forall_iff_forall_mem.mp hostOps1_1_late) op hop
  · exact (List.forall_iff_forall_mem.mp hostOps1_2_late) op hop
  · exact (List.forall_iff_forall_mem.mp hostOps1_3_late) op hop
  · exact (List.forall_iff_forall_mem.mp hostOps1_4_late) op hop

/-- The arrays the grid stages are held. -/
theorem arr_held : ∀ w, Pipeline.arrRef spec0 w ∈ held := by decide

/-- @main is the host lines before the grid, the grid, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the grid touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array the grid stages. -/
theorem sfx_keeps : ∀ ops ∈ (tailOps : List (List (HloOp τ sig (Elt F)))), ∀ op ∈ ops,
    ∀ w, Proc.devRef .tc (Pipeline.arrRef spec0 w) ∉ op.writes :=
  fun ops hops op hop w => tail_late ops hops op hop _ (arr_held w)

/-! ## The argument arrays are written by no host line -/

/-- The three host lines before the grid write their own results: the grid finds a held buffer other than the
    joined weights (their product) as it was launched. -/
theorem V_of_arg (c : Dev nD) (b : Ref sig .tc) (hb : b ∈ held) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    refine ⟨?_, ?_, ?_⟩
    · exact held_ne (y := main_v0) (by decide) b hb
    · exact held_ne (y := main_v1) (by decide) b hb
    · exact StableHlo.devRef_ne_of_ne h2))

/-- A held buffer that is no array of the grid ends, after the lines that follow the grid, as the grid found it. -/
theorem afterTail_held (dats : (p : Fin 1) → (c : Dev nD) → Dat τ (Elt F) Unit ℕ (UR sig nD τ) ℕ (cfgs p) c) (c : Dev nD)
    (b : Ref sig .tc) (hb : b ∈ held) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (by
      intro op hop
      obtain ⟨ops, hops, hop'⟩ := List.mem_flatten.mp hop
      exact tail_late ops hops op hop' b hb),
    Pipeline.withArrays_of_ne _ c (V0 m c) _ b hne]

/-! ## The windows' blocks -/

/-- Window w's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev r0_0 : Rect S1000x512 := Rect.unit (s := S1000x512) ![0, 0] S1000x512.size inb_S1000x512_S1000x512_0_0
abbrev r0_1 : Rect S512x1536 := Rect.unit (s := S512x1536) ![0, 0] S512x1536.size inb_S512x1536_S512x1536_0_0
abbrev r0_2 : Rect S1000x1536 := Rect.unit (s := S1000x1536) ![0, 0] S1000x1536.size inb_S1000x1536_S1000x1536_0_0

/-- The output window's buffer after the body, from the two input blocks: one store, of the matrix unit's product,
    through the whole rectangle. -/
def out0_2 (x0 : Vec F S1000x512 .f32) (x1 : Vec F S512x1536 .bf16) : Vec F S1000x1536 .f32 :=
  View.canon [⟨r0_2, k0_pay1 (View.ld x0 r0_0) (View.ld x1 r0_1)⟩]

/-- The one store covers the buffer. -/
theorem cover0_2 (p0 : Vec F S1000x1536 .f32) (y : S1000x1536.Idx) :
    ∃ pc ∈ ([⟨r0_2, p0⟩] : List (View.Piece (Elt F) S1000x1536 .f32)), y ∈ pc.1.set :=
  View.cover_of_tiled [⟨r0_2, p0⟩] S1000x1536.size (by rfl) y

/-! ## The body's triple -/

set_option maxHeartbeats 1000000 in
/-- The body on whole staging memrefs, the inputs' at contents x0, x1 and the output's at anything, runs to the
    continuation holding the inputs' as they were and the output's at the product of the two. -/
theorem sound_kernel (c : Dev nD) (E : Set ℕ) (i : grid0.Coords)
    (arg1 : Memref sig .tc .vmem S1000x512 .f32) (harg1 : arg1.IsWhole)
    (arg2 : Memref sig .tc .vmem S512x1536 .bf16) (harg2 : arg2.IsWhole)
    (arg3 : Memref sig .tc .vmem S1000x1536 .f32) (harg3 : arg3.IsWhole)
    (x0 : Vec F S1000x512 .f32) (x1 : Vec F S512x1536 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The grid's proof data -/

/-- On core c: the arrays as the grid finds them; after the body at point t each input's buffer at its block and
    the output's at the product of the two input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array the grid stages at what
    the grid's write-backs leave and every other unscoped buffer as the lines after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument the grid does not stage ends as launched. -/
theorem kept_rest (c : Dev nD) (b : Ref sig .tc) (hb : b ∈ held) (h2 : b ≠ main_v2) (hne : ∀ w, Pipeline.arrRef spec0 w ≠ b)
    (r : PUnit × MemSt nD τ sig (Elt F))
    (h : Pipeline.FramePost cfgs (dats m) 0 (Pipeline.afterTail₀ cfgs (dats m) 0 (V0 m) tailOps) r)
    (hr : b ∈ Pipeline.restRefs sig spec0) :
    r.2.mem ((c.tc : Thread nD τ).loc b) = m ((c.tc : Thread nD τ).loc b) :=
  ((h c).2 b hr).trans ((afterTail_held m (dats m) c b hb hne).trans (V_of_arg m c b hb h2))

/-- THE FRAME, at any float instance: the run ends with the nine argument arrays as launched. The first argument is
    staged by the grid as an input, never written back; the other eight bypass the grid. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 0).trans (((dats m 0 c).arrAt_in 0 rfl _).trans ((A_eq m c 0).trans (V_of_arg m c main_arg0 (by decide) (by decide)))),
     kept_rest m c main_arg1 (by decide) (by decide) (by decide) r h (Pipeline.mem_restRefs_of main_arg1 (by decide) (by decide)),
     kept_rest m c main_arg2 (by decide) (by decide) (by decide) r h (Pipeline.mem_restRefs_of main_arg2 (by decide) (by decide)),
     kept_rest m c main_arg3 (by decide) (by decide) (by decide) r h (Pipeline.mem_restRefs_of main_arg3 (by decide) (by decide)),
     kept_rest m c main_arg4 (by decide) (by decide) (by decide) r h (Pipeline.mem_restRefs_of main_arg4 (by decide) (by decide)),
     kept_rest m c main_arg5 (by decide) (by decide) (by decide) r h (Pipeline.mem_restRefs_of main_arg5 (by decide) (by decide)),
     kept_rest m c main_arg6 (by decide) (by decide) (by decide) r h (Pipeline.mem_restRefs_of main_arg6 (by decide) (by decide)),
     kept_rest m c main_arg7 (by decide) (by decide) (by decide) r h (Pipeline.mem_restRefs_of main_arg7 (by decide) (by decide)),
     kept_rest m c main_arg8 (by decide) (by decide) (by decide) r h (Pipeline.mem_restRefs_of main_arg8 (by decide) (by decide))⟩)
    (run_main m ρ)

end Cert.KernelIdeal.Hand

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.LibUniformConcat.lean ====
/-
  A concatenation of pieces of one shape, read at an index, and a way to state a fact about every piece of a long
  literal list at once.

  Laying `N` pieces of the same extent `K` end to end along an axis puts position `r` of the result in piece `r / K`, at
  position `r % K` of that piece: the pieces before it take up `K · (r / K)` positions. For rows of a two-axis array
  (pieces `[K, w]`, result `[T, w]`, joined along axis 0) this is `concat_blocks_pred` below.

  `Numbered P n xs` says `P n` of the first piece of `xs`, `P (n+1)` of the second, and so on: a proof supplies it for a
  literal list as one conjunction, piece by piece, and `Numbered.get` reads it back at a position given as a number.
-/
import Idealize.ShloMosaic.PureOps.Ideal
import Idealize.ShloMosaic.Lib.ValueIdx
import Idealize.ShloMosaic.Lib.Pipeline.Value

noncomputable section

namespace Idealize.ShloMosaic.UniformConcat

open Idealize.ShloMosaic Idealize.ShloMosaic.ValueIdx

variable {α : Type}

/-- `P n` of the first piece, `P (n + 1)` of the second, … -/
def Numbered {β : Type _} (P : ℕ → β → Prop) : ℕ → List β → Prop
  | _, [] => True
  | n, y :: ys => P n y ∧ Numbered P (n + 1) ys

theorem Numbered.get {β : Type _} (P : ℕ → β → Prop) : ∀ (n : ℕ) (xs : List β), Numbered P n xs →
    ∀ (k : ℕ) (hk : k < xs.length), P (n + k) xs[k]
  | _, [], _, k, hk => absurd hk (Nat.not_lt_zero _)
  | n, y :: ys, h, 0, _ => h.1
  | n, y :: ys, h, k + 1, hk => by
    have := Numbered.get P (n + 1) ys h.2 k (by simpa using hk)
    simpa [Nat.add_assoc, Nat.add_comm 1 k] using this

/-- The pieces before piece `n`, all of extent `K` along the axis, take up `K · n` positions. -/
theorem take_extent_sum {t s₁ : Shape} (a : Fin t.rank) (hr : s₁.rank = t.rank) (K : ℕ)
    (hK : s₁.size (a.cast hr.symm) = K) :
    ∀ (xs : List ((s : Shape) × (s.Idx → α))) (_ : ∀ y ∈ xs, y.1 = s₁) (n : ℕ) (_ : n ≤ xs.length),
      (((xs.take n).map (·.1)).map fun s => if h : s.rank = t.rank then s.size (a.cast h.symm) else 0).sum = K * n
  | _, _, 0, _ => by simp
  | [], _, n + 1, hn => absurd hn (by simp)
  | y :: ys, hall, n + 1, hn => by
    have hy : y.1 = s₁ := hall y (by simp)
    have ih := take_extent_sum a hr K hK ys (fun z hz => hall z (by simp [hz])) n (by simpa using hn)
    simp only [List.take_succ_cons, List.map_cons, List.sum_cons]
    rw [ih, hy, dif_pos hr, hK]
    ring

/-- A concatenation of pieces that all have the shape `s₁`, of extent `K` along the axis, read at an index: piece `n`
    at the index with the same coordinates off the axis and, on it, the position less `K · n`. -/
theorem concatenate_uniform_apply {t s₁ : Shape} (a : Fin t.rank) (xs : List ((s : Shape) × (s.Idx → α)))
    (h : Shape.Concatenates (xs.map (·.1)) t a) (hr : s₁.rank = t.rank) (K : ℕ) (hK : s₁.size (a.cast hr.symm) = K)
    (hall : ∀ y ∈ xs, y.1 = s₁) (j : t.Idx) (n : ℕ) (hn : n < xs.length) (x₁ : s₁.Idx → α) (hx : xs[n] = ⟨s₁, x₁⟩)
    (i : s₁.Idx) (hi : ∀ b : Fin s₁.rank, b.cast hr ≠ a → (i b).val = (j (b.cast hr)).val)
    (ha : K * n + (i (a.cast hr.symm)).val = (j a).val) :
    concatenate t a xs h j = x₁ i :=
  concatenate_apply_piece a xs h j n hn s₁ x₁ hx hr (K * n)
    (take_extent_sum a hr K hK xs hall n (Nat.le_of_lt hn)) i hi ha

/-- Rows: pieces `[K, w]` joined along axis 0 into `[T, w]`, every piece `n` satisfying `Q n`. The result's row `r`,
    column `c`, is row `r % K`, column `c`, of a piece that satisfies `Q (r / K)`. -/
theorem concat_blocks_pred {K w T : ℕ} (xs : List ((s : Shape) × (s.Idx → α)))
    (h : Shape.Concatenates (xs.map (·.1)) ⟨2, ![T, w]⟩ 0)
    (Q : ℕ → ((⟨2, ![K, w]⟩ : Shape).Idx → α) → Prop)
    (hxs : Numbered (fun n (y : (s : Shape) × (s.Idx → α)) => ∃ x : (⟨2, ![K, w]⟩ : Shape).Idx → α,
      y = ⟨⟨2, ![K, w]⟩, x⟩ ∧ Q n x) 0 xs)
    (hK : 0 < K) (r : Fin T) (c : Fin w) (hlt : r.val / K < xs.length) :
    ∃ x : (⟨2, ![K, w]⟩ : Shape).Idx → α, Q (r.val / K) x ∧
      concatenate ⟨2, ![T, w]⟩ 0 xs h (ix2 r c) = x (ix2 ⟨r.val % K, Nat.mod_lt _ hK⟩ c) := by
  obtain ⟨x, hx, hQ⟩ := Numbered.get _ 0 xs hxs (r.val / K) hlt
  rw [Nat.zero_add] at hQ
  refine ⟨x, hQ, ?_⟩
  have hall : ∀ y ∈ xs, y.1 = (⟨2, ![K, w]⟩ : Shape) := by
    intro y hy
    obtain ⟨k, hk, rfl⟩ := List.getElem_of_mem hy
    obtain ⟨x', hx', -⟩ := Numbered.get _ 0 xs hxs k hk
    rw [hx']
  refine concatenate_uniform_apply (t := ⟨2, ![T, w]⟩) (s₁ := ⟨2, ![K, w]⟩) (0 : Fin 2) xs h rfl K rfl hall (ix2 r c) (r.val / K) hlt x hx
    (ix2 ⟨r.val % K, Nat.mod_lt _ hK⟩ c) ?_ ?_
  · intro b hb
    match b with
    | ⟨0, _⟩ => exact absurd rfl hb
    | ⟨1, _⟩ => rfl
  · show K * (r.val / K) + r.val % K = r.val
    exact Nat.div_add_mod r.val K

end Idealize.ShloMosaic.UniformConcat

end
-- ==== Proof.Product.lean ====
/-
  The fused product of the kernel, entry by entry, and its three column thirds.

  The grid multiplies the rows of x by one joined weight matrix Wt of shape [512, 1536]: Wt is the transpose of the
  three square weights W4, W5, W6 laid one under another, so Wt(k, 512·j + q) = Wj(q, k). The fused product is
  Y(n, c) = Σ_k x(n, k) · Wt(k, c). Columns [512·j, 512·j + 512) of Y are then Σ_k x(n, k) · Wj(q, k), which is the
  plain product of x with the transpose of Wj: the same sum of the same products, term by term.
-/
import proofs.«158807_j15814069584045_1_alg».proof.Proof.Gen.KernelIdeal
import proofs.«158807_j15814069584045_1_alg».proof.Proof.Gen.KernelIdeal.Skeleton
import proofs.«158807_j15814069584045_1_alg».proof.Proof.Gen.ReferenceIdeal
import proofs.«158807_j15814069584045_1_alg».proof.Proof.LibPlainProduct
import proofs.«158807_j15814069584045_1_alg».proof.Proof.LibUniformConcat
import Idealize.ShloMosaic.Lib.ValueIdx
import Idealize.ShloMosaic.Lib.Pipeline.Value
import Idealize.ShloMosaic.PureOps.Ideal.Laws

set_option synthInstance.maxSize 4096

noncomputable section

open scoped BigOperators

namespace Cert.KernelIdeal.Product

open Idealize.ShloMosaic Idealize.ShloMosaic.ValueIdx Cert.KernelIdeal Cert.KernelIdeal.Facts₀
open Cert.LibPlainProduct Idealize.ShloMosaic.UniformConcat

/-- The joined weights as the grid finds them. -/
def wcatT (w4 w5 w6 : FVec Ideal S512x512 .f32) : FVec Ideal S512x1536 .bf16 :=
  truncf .bf16 (transpose S512x1536 [1, 0] (concatenate S1536x512 0 [⟨S512x512, w4⟩, ⟨S512x512, w5⟩, ⟨S512x512, w6⟩] concatenates_S512x512_S512x512_S512x512_S1536x512_d0) transposes_S1536x512_S512x1536_1_0) bitsLt_bf16_f32

/-- The fused product, entry by entry. -/
def fused (x : FVec Ideal S50000x512 .f32) (wt : FVec Ideal S512x1536 .bf16) : FVec Ideal S50000x1536 .f32 :=
  fun j => ∑ k : Fin 512, x (ix2 (j 0) k) * wt (ix2 k (j 1))

/-- The joined weights at (k, c) are the stacked weights at (c, k): narrowing is the identity on extended reals and the
    transpose swaps the two coordinates. -/
theorem wcatT_eq_stack (w4 w5 w6 : FVec Ideal S512x512 .f32) (k : Fin 512) (c : Fin 1536) :
    wcatT w4 w5 w6 (ix2 k c)
      = concatenate S1536x512 0 [⟨S512x512, w4⟩, ⟨S512x512, w5⟩, ⟨S512x512, w6⟩] concatenates_S512x512_S512x512_S512x512_S1536x512_d0 (ix2 c k) := by
  unfold wcatT
  rw [truncf_apply]
  refine transpose_apply (s := S1536x512) (t := S512x1536) [1, 0] _ _ (ix2 k c) (ix2 c k) fun b => ?_
  match b with
  | ⟨0, _⟩ => rfl
  | ⟨1, _⟩ => rfl

/-- Row 512·n + q of the stack is row q of its n-th piece. -/
theorem stack_apply (w4 w5 w6 : FVec Ideal S512x512 .f32) (k : Fin 512) (c : Fin 1536) (n : ℕ) (hn : n < 3)
    (wn : FVec Ideal S512x512 .f32)
    (hw : [(⟨S512x512, w4⟩ : (s : Shape) × (s.Idx → EReal)), ⟨S512x512, w5⟩, ⟨S512x512, w6⟩][n] = ⟨S512x512, wn⟩)
    (q : Fin 512) (hc : 512 * n + q.val = c.val) :
    concatenate S1536x512 0 [⟨S512x512, w4⟩, ⟨S512x512, w5⟩, ⟨S512x512, w6⟩] concatenates_S512x512_S512x512_S512x512_S1536x512_d0 (ix2 c k)
      = wn (ix2 q k) := by
  refine concatenate_uniform_apply (t := S1536x512) (s₁ := S512x512) (0 : Fin 2)
    [⟨S512x512, w4⟩, ⟨S512x512, w5⟩, ⟨S512x512, w6⟩] _ rfl 512 rfl ?_ (ix2 c k) n hn wn hw
    (ix2 q k) ?_ hc
  · intro y hy
    simp only [List.mem_cons, List.not_mem_nil, or_false] at hy
    rcases hy with rfl | rfl | rfl <;> rfl
  · intro b hb
    match b with
    | ⟨0, _⟩ => exact absurd rfl hb
    | ⟨1, _⟩ => rfl

theorem wcatT_apply0 (w4 w5 w6 : FVec Ideal S512x512 .f32) (k q : Fin 512) :
    wcatT w4 w5 w6 (ix2 k ⟨q.val, by omega⟩) = w4 (ix2 q k) := by
  rw [wcatT_eq_stack]
  exact stack_apply w4 w5 w6 k _ 0 (by omega) w4 rfl q (by show 512 * 0 + q.val = q.val; omega)

theorem wcatT_apply1 (w4 w5 w6 : FVec Ideal S512x512 .f32) (k q : Fin 512) :
    wcatT w4 w5 w6 (ix2 k ⟨512 + q.val, by omega⟩) = w5 (ix2 q k) := by
  rw [wcatT_eq_stack]
  exact stack_apply w4 w5 w6 k _ 1 (by omega) w5 rfl q (by show 512 * 1 + q.val = 512 + q.val; omega)

theorem wcatT_apply2 (w4 w5 w6 : FVec Ideal S512x512 .f32) (k q : Fin 512) :
    wcatT w4 w5 w6 (ix2 k ⟨1024 + q.val, by omega⟩) = w6 (ix2 q k) := by
  rw [wcatT_eq_stack]
  exact stack_apply w4 w5 w6 k _ 2 (by omega) w6 rfl q (by show 512 * 2 + q.val = 1024 + q.val; omega)

/-- One grid point's product: the matrix unit accumulates into zeros, so entry (r, c) is the plain sum over the
    contracted coordinate; the narrowing of the left block and the cast of the right block to its own shape change
    nothing. -/
theorem pay_apply (xb : Vec Ideal S1000x512 .f32) (wb : Vec Ideal S512x1536 .bf16) (r : Fin 1000) (c : Fin 1536) :
    Gen.k0_pay1 xb wb (ix2 r c) = ∑ k : Fin 512, xb (ix2 r k) * wb (ix2 k c) := by
  unfold Gen.k0_pay1
  show FloatOps.matmul (F := Ideal) (φ₁ := .bf16) (φ₂ := .bf16) (plainDims dot_S1000x512_S512x1536_S1000x1536_1_0_0_1_n_n_wf) none
      (truncf .bf16 xb bitsLt_bf16_f32) (shapeCast S512x1536 (wb : FVec Ideal S512x1536 .bf16) shapeCasts_S512x1536_S512x1536)
      (constant ⟨2, ![1000, 1536]⟩ .f32 0x00000000#32) (ix2 r c) = _
  rw [shapeCast_self, matmul_zero_plain_apply]
  rfl

/-- Columns [0, 512) of the fused product are the plain product of x with the transpose of the first weight. -/
theorem leaf0 (x : FVec Ideal S50000x512 .f32) (w4 w5 w6 : FVec Ideal S512x512 .f32) :
    extractStridedSlice S50000x512 ![0, 0] (fused x (wcatT w4 w5 w6)) slices_S50000x1536_S50000x512_0_0
      = Host.dotGeneral (F := Ideal) Cert.ReferenceIdeal.dot_S50000x512_S512x512_S50000x512_1_0_0_1_n_n none x
          (transpose Cert.ReferenceIdeal.S512x512 [1, 0] w4 Cert.ReferenceIdeal.Facts₀.transposes_S512x512_S512x512_1_0) := by
  funext i
  obtain ⟨n, q, rfl⟩ : ∃ n q, i = ix2 n q := ⟨_, _, eq_ix2 i⟩
  rw [extractStridedSlice_apply (s := S50000x1536) (t := S50000x512) ![0, 0] _ _ (ix2 n q) (ix2 n ⟨q.val, by omega⟩)
    (fun a => by match a with
      | ⟨0, _⟩ => show n.val = 0 + n.val; omega
      | ⟨1, _⟩ => show q.val = 0 + q.val; omega)]
  show ∑ k : Fin 512, x (ix2 n k) * wcatT w4 w5 w6 (ix2 k ⟨q.val, _⟩)
    = Host.dotGeneral (F := Ideal) (plainDims Cert.ReferenceIdeal.Facts₀.dot_S50000x512_S512x512_S50000x512_1_0_0_1_n_n_wf) none x _ (ix2 n q)
  rw [dotGeneral_plain_apply]
  refine Finset.sum_congr rfl fun k _ => ?_
  rw [wcatT_apply0]
  refine congrArg (x (ix2 n k) * ·) (Eq.symm ?_)
  refine transpose_apply (s := S512x512) (t := S512x512) [1, 0] w4 _ (ix2 k q) (ix2 q k) fun b => ?_
  match b with
  | ⟨0, _⟩ => rfl
  | ⟨1, _⟩ => rfl

/-- Columns [512, 1024) of the fused product are the plain product of x with the transpose of the second weight. -/
theorem leaf1 (x : FVec Ideal S50000x512 .f32) (w4 w5 w6 : FVec Ideal S512x512 .f32) :
    extractStridedSlice S50000x512 ![0, 512] (fused x (wcatT w4 w5 w6)) slices_S50000x1536_S50000x512_0_512
      = Host.dotGeneral (F := Ideal) Cert.ReferenceIdeal.dot_S50000x512_S512x512_S50000x512_1_0_0_1_n_n none x
          (transpose Cert.ReferenceIdeal.S512x512 [1, 0] w5 Cert.ReferenceIdeal.Facts₀.transposes_S512x512_S512x512_1_0) := by
  funext i
  obtain ⟨n, q, rfl⟩ : ∃ n q, i = ix2 n q := ⟨_, _, eq_ix2 i⟩
  rw [extractStridedSlice_apply (s := S50000x1536) (t := S50000x512) ![0, 512] _ _ (ix2 n q) (ix2 n ⟨512 + q.val, by omega⟩)
    (fun a => by match a with
      | ⟨0, _⟩ => show n.val = 0 + n.val; omega
      | ⟨1, _⟩ => show 512 + q.val = 512 + q.val; omega)]
  show ∑ k : Fin 512, x (ix2 n k) * wcatT w4 w5 w6 (ix2 k ⟨512 + q.val, _⟩)
    = Host.dotGeneral (F := Ideal) (plainDims Cert.ReferenceIdeal.Facts₀.dot_S50000x512_S512x512_S50000x512_1_0_0_1_n_n_wf) none x _ (ix2 n q)
  rw [dotGeneral_plain_apply]
  refine Finset.sum_congr rfl fun k _ => ?_
  rw [wcatT_apply1]
  refine congrArg (x (ix2 n k) * ·) (Eq.symm ?_)
  refine transpose_apply (s := S512x512) (t := S512x512) [1, 0] w5 _ (ix2 k q) (ix2 q k) fun b => ?_
  match b with
  | ⟨0, _⟩ => rfl
  | ⟨1, _⟩ => rfl

/-- Columns [1024, 1536) of the fused product are the plain product of x with the transpose of the third weight. -/
theorem leaf2 (x : FVec Ideal S50000x512 .f32) (w4 w5 w6 : FVec Ideal S512x512 .f32) :
    extractStridedSlice S50000x512 ![0, 1024] (fused x (wcatT w4 w5 w6)) slices_S50000x1536_S50000x512_0_1024
      = Host.dotGeneral (F := Ideal) Cert.ReferenceIdeal.dot_S50000x512_S512x512_S50000x512_1_0_0_1_n_n none x
          (transpose Cert.ReferenceIdeal.S512x512 [1, 0] w6 Cert.ReferenceIdeal.Facts₀.transposes_S512x512_S512x512_1_0) := by
  funext i
  obtain ⟨n, q, rfl⟩ : ∃ n q, i = ix2 n q := ⟨_, _, eq_ix2 i⟩
  rw [extractStridedSlice_apply (s := S50000x1536) (t := S50000x512) ![0, 1024] _ _ (ix2 n q) (ix2 n ⟨1024 + q.val, by omega⟩)
    (fun a => by match a with
      | ⟨0, _⟩ => show n.val = 0 + n.val; omega
      | ⟨1, _⟩ => show 1024 + q.val = 1024 + q.val; omega)]
  show ∑ k : Fin 512, x (ix2 n k) * wcatT w4 w5 w6 (ix2 k ⟨1024 + q.val, _⟩)
    = Host.dotGeneral (F := Ideal) (plainDims Cert.ReferenceIdeal.Facts₀.dot_S50000x512_S512x512_S50000x512_1_0_0_1_n_n_wf) none x _ (ix2 n q)
  rw [dotGeneral_plain_apply]
  refine Finset.sum_congr rfl fun k _ => ?_
  rw [wcatT_apply2]
  refine congrArg (x (ix2 n k) * ·) (Eq.symm ?_)
  refine transpose_apply (s := S512x512) (t := S512x512) [1, 0] w6 _ (ix2 k q) (ix2 q k) fun b => ?_
  match b with
  | ⟨0, _⟩ => rfl
  | ⟨1, _⟩ => rfl

end Cert.KernelIdeal.Product

end
-- ==== Proof.ArrayKI.lean ====
/-
  From the grid's blocks to the whole result array, at the ideal values.

  When the grid is entered the joined-weights array holds Wt (the three host lines before the grid, read back). Grid
  point t multiplies rows 1000·t … 1000·t + 999 of x by all of Wt and writes the product back as rows
  1000·t … 1000·t + 999 of the result. Entry (r, c) of that product is Σ_k x(1000·t + r, k) · Wt(k, c), which is entry
  (1000·t + r, c) of the fused product: every point writes back its own block of ONE array. Row n of the result lies
  in the block of point n / 1000, and 50 blocks of 1000 rows fill the 50000 rows, so after the grid the result array
  is the fused product everywhere.
-/
import proofs.«158807_j15814069584045_1_alg».proof.Proof.FrameKI
import proofs.«158807_j15814069584045_1_alg».proof.Proof.Product
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The all-zero offsets, however they are spelt. -/
theorem zero_offsets : (![0, 0] : Fin 2 → Nat) = fun _ => 0 := funext fun a => by fin_cases a <;> rfl

/-! ## The joined weights when the grid is entered -/

/-- The three host lines before the grid leave the joined, transposed, narrowed weights in the second window's array. -/
theorem V_main_v2 (c : Dev nD) :
    (Hand.V m c main_v2 : S512x1536.Idx → EReal)
      = Product.wcatT (m ((c : Thread nD τ).loc main_arg4)) (m ((c : Thread nD τ).loc main_arg5)) (m ((c : Thread nD τ).loc main_arg6)) := by
  dsimp only [Hand.V, Hand.V0]
  simp only [Gen.hostOps0, List.flatten_cons, List.flatten_nil, List.append_nil]
  after_results
  rfl

/-! ## Where each window's block sits -/

/-- The block indices over the grid: point t takes row block t of x and of the result, and the one block of Wt. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is rows 1000·t … 1000·t + 999 of x. -/
theorem xblock_apply (c : Dev nD) (t : Fin cfg0.N) (y : S1000x512.Idx) (i : S50000x512.Idx)
    (h0 : (i 0).val = 1000 * t.val + (y 0).val) (h1 : (i 1).val = (y 1).val) :
    (Hand.iblk m c 0 t : Vec Ideal S1000x512 .f32) y = (m ((c : Thread nD τ).loc main_arg0) : S50000x512.Idx → EReal) i := by
  obtain ⟨e0, e1, -⟩ := block_index t
  unfold Hand.iblk
  rw [View.read_apply]
  show Hand.V m c main_arg0 _ = _
  rw [Hand.V_of_arg m c main_arg0 (by decide) (by decide)]
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 512 + 1 * (y 1).val = (i 1).val; rw [e1, h1]; omega

/-- The block of the joined weights at any point is all of Wt. -/
theorem wblock_apply (c : Dev nD) (t : Fin cfg0.N) (y : S512x1536.Idx) :
    (Hand.iblk m c 1 t : Vec Ideal S512x1536 .bf16) y
      = Product.wcatT (m ((c : Thread nD τ).loc main_arg4)) (m ((c : Thread nD τ).loc main_arg5)) (m ((c : Thread nD τ).loc main_arg6)) y := by
  obtain ⟨-, -, e0, e1, -⟩ := block_index t
  unfold Hand.iblk
  rw [View.read_apply]
  show (Hand.V m c main_v2 : S512x1536.Idx → EReal) _ = _
  rw [V_main_v2]
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 1536 + 1 * (y 1).val = (y 1).val; rw [e1]; omega

/-! ## One point's product is its block of the fused product -/

/-- If a left block holds rows 1000·tv … of x and the right block is Wt, their product at (r, c) is the fused product
    at (1000·tv + r, c): the same sum over the contracted coordinate. -/
theorem point_eq (xb : Vec Ideal S1000x512 .f32) (wb : Vec Ideal S512x1536 .bf16)
    (x : FVec Ideal S50000x512 .f32) (wt : FVec Ideal S512x1536 .bf16) (tv : ℕ)
    (hx : ∀ (y : S1000x512.Idx) (i : S50000x512.Idx), (i 0).val = 1000 * tv + (y 0).val → (i 1).val = (y 1).val → xb y = x i)
    (hw : ∀ y : S512x1536.Idx, wb y = wt y)
    (y : S1000x1536.Idx) (i : S50000x1536.Idx) (h0 : (i 0).val = 1000 * tv + (y 0).val) (h1 : (i 1).val = (y 1).val) :
    Gen.k0_pay1 xb wb y = Product.fused x wt i := by
  obtain ⟨r, q, rfl⟩ : ∃ r q, y = ix2 r q := ⟨_, _, eq_ix2 y⟩
  rw [Product.pay_apply]
  show _ = ∑ k : Fin 512, x (ix2 (i 0) k) * wt (ix2 k (i 1))
  refine Finset.sum_congr rfl fun k _ => ?_
  have e : i 1 = q := Fin.ext h1
  rw [hx (ix2 r k) (ix2 (i 0) k) h0 rfl, hw, e]

/-- WHAT POINT t WRITES BACK is block t of the fused product of x and Wt. -/
theorem flushed_eq (c : Dev nD) (t : Fin cfg0.N) :
    (Hand.dats m 0 c).flushed 2 t = ((cfg0.win 2).blk t).view.read (Elt Ideal)
      (Product.fused (m ((c : Thread nD τ).loc main_arg0))
        (Product.wcatT (m ((c : Thread nD τ).loc main_arg4)) (m ((c : Thread nD τ).loc main_arg5)) (m ((c : Thread nD τ).loc main_arg6)))) := by
  show (cfg0.win 2).cut (grid0.coords t) ((Hand.dats m 0 c).after 2 t) = _
  rw [Hand.after0_2]
  unfold Hand.out0_2
  rw [View.canon_unit_zero zero_offsets]
  simp only [View.ld_unit_zero (S := S1000x512) zero_offsets, View.ld_unit_zero (S := S512x1536) zero_offsets]
  obtain ⟨-, -, -, -, e0, e1⟩ := block_index t
  funext j
  refine point_eq (Hand.iblk m c 0 t) (Hand.iblk m c 1 t) _ _ t.val
    (fun y i h0 h1 => xblock_apply m c t y i h0 h1) (fun y => wblock_apply m c t y) _ _ ?_ ?_
  · show win0_2.index t (0 : Fin 2) * 1000 + 1 * (j 0).val = 1000 * t.val + (j 0).val
    rw [e0]; omega
  · show win0_2.index t (1 : Fin 2) * 1536 + 1 * (j 1).val = (j 1).val
    rw [e1]; omega

/-! ## The blocks fill the array -/

/-- An index of the result is in point t's block iff each coordinate is in the block's range on its axis. -/
theorem mem_blk (t : Fin cfg0.N) (i : S50000x1536.Idx) :
    i ∈ ((cfg0.win 2).blk t).view.set ↔ ∀ a : Fin 2, win0_2.index t a * S1000x1536.size a ≤ (i a).val ∧ (i a).val < win0_2.index t a * S1000x1536.size a + S1000x1536.size a := by
  show i ∈ ((View.whole main_v3).slice (win0_2.rect t)).set ↔ _
  rw [View.set_slice_whole, Rect.mem_set_unit]
  exact Iff.rfl

/-- Row n of the result is in the block of point n / 1000. -/
theorem cover (i : S50000x1536.Idx) :
    ∃ t : Fin cfg0.N, (cfg0.win 2).flush t = true ∧ i ∈ ((cfg0.win 2).blk t).view.set := by
  have hi0 : (i 0).val < 50000 := (i 0).isLt
  have hi1 : (i 1).val < 1536 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, e0, e1⟩ := block_index t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; rw [e0]; omega
  | ⟨1, _⟩ => show win0_2.index t (1 : Fin 2) * 1536 ≤ (i 1).val ∧ (i 1).val < win0_2.index t (1 : Fin 2) * 1536 + 1536; rw [e1]; omega

/-- THE RESULT ARRAY after the grid is the fused product of x and Wt. -/
theorem final (c : Dev nD) :
    (Hand.dats m 0 c).arrAt 2 cfg0.N
      = Product.fused (m ((c : Thread nD τ).loc main_arg0))
          (Product.wcatT (m ((c : Thread nD τ).loc main_arg4)) (m ((c : Thread nD τ).loc main_arg5)) (m ((c : Thread nD τ).loc main_arg6))) :=
  (Hand.dats m 0 c).arrAt_eq_of_cover 2 _ (fun t _ => flushed_eq m c t) cover

end Cert.KernelIdeal.HandValue

end
-- ==== Proof.Tail.lean ====
/-
  The host lines the two programs share.

  Past its first ten lines after the grid the kernel's program runs 144 host lines; past its first thirteen lines (three
  transposes, three products, the node numbering and the two edge-endpoint lists) the reference runs 144 lines. They are
  the same operations on the same literals, in the same order: the degree of every node counted with self loops, its
  inverse square root where positive, the normalised sum over bond edges; the mean over the virtual intra edges; the
  sigmoid of the dot product of two projected rows as the weight of a virtual connecting edge; the bias. Each line's
  result is a function of earlier results only, so the two result arrays are one function of the leaves: when the
  leaves agree — the three projections, the two endpoint lists, four arguments — so do the results.
-/
import proofs.«158807_j15814069584045_1_alg».proof.Proof.FrameKI
import proofs.«158807_j15814069584045_1_alg».proof.Proof.RefRun
import Idealize.ShloMosaic.Lib.StableHlo.Run
import Idealize.ShloMosaic.PureOps.Ideal

set_option maxRecDepth 16384

noncomputable section

namespace Cert.KernelIdeal.TailValue

open Cert.KernelIdeal Cert.KernelIdeal.Gen
open Idealize.ShloMosaic Idealize.ShloMosaic.TcCoe Idealize.SL.Sem Idealize.ShloMosaic.StableHlo

/-- The kernel's host lines after the grid, past the first ten (the three column slices of the grid's result, the node
    numbering, and the two edge-endpoint lists with the self loops appended): 144 lines, none of which joins arrays. -/
abbrev restOps : List (HloOp τ sig (Elt Ideal)) :=
  (hostOps1 (F := Ideal)).drop 10 ++ (hostOps1_1 ++ (hostOps1_2 ++ (hostOps1_3 ++ hostOps1_4)))

set_option maxHeartbeats 400000000 in
/-- Run from contents W, the kernel's 144 lines leave in its result buffer what all the reference's lines, run from
    contents M, leave in the reference's — given that W holds, in the three slice buffers, the reference's three
    products of M's arguments; in the two endpoint-list buffers, the reference's two lists; and M's own contents in the
    four arguments the lines read. -/
theorem tail_eq (W : Valuation τ sig (Elt Ideal)) (M : Valuation Cert.ReferenceIdeal.τ Cert.ReferenceIdeal.sig (Elt Ideal))
    (hb : W (Proc.devRef .tc main_v4) = Host.dotGeneral (F := Ideal) (φ₁ := .f32) (φ₂ := .f32) Cert.ReferenceIdeal.dot_S50000x512_S512x512_S50000x512_1_0_0_1_n_n none (M (Proc.devRef .tc Cert.ReferenceIdeal.main_arg0) : FVec Ideal Cert.ReferenceIdeal.S50000x512 .f32) (transpose Cert.ReferenceIdeal.S512x512 [1, 0] (M (Proc.devRef .tc Cert.ReferenceIdeal.main_arg4) : FVec Ideal Cert.ReferenceIdeal.S512x512 .f32) Cert.ReferenceIdeal.Gen.transposes_S512x512_S512x512_1_0))
    (hv : W (Proc.devRef .tc main_v5) = Host.dotGeneral (F := Ideal) (φ₁ := .f32) (φ₂ := .f32) Cert.ReferenceIdeal.dot_S50000x512_S512x512_S50000x512_1_0_0_1_n_n none (M (Proc.devRef .tc Cert.ReferenceIdeal.main_arg0) : FVec Ideal Cert.ReferenceIdeal.S50000x512 .f32) (transpose Cert.ReferenceIdeal.S512x512 [1, 0] (M (Proc.devRef .tc Cert.ReferenceIdeal.main_arg5) : FVec Ideal Cert.ReferenceIdeal.S512x512 .f32) Cert.ReferenceIdeal.Gen.transposes_S512x512_S512x512_1_0))
    (hc : W (Proc.devRef .tc main_v6) = Host.dotGeneral (F := Ideal) (φ₁ := .f32) (φ₂ := .f32) Cert.ReferenceIdeal.dot_S50000x512_S512x512_S50000x512_1_0_0_1_n_n none (M (Proc.devRef .tc Cert.ReferenceIdeal.main_arg0) : FVec Ideal Cert.ReferenceIdeal.S50000x512 .f32) (transpose Cert.ReferenceIdeal.S512x512 [1, 0] (M (Proc.devRef .tc Cert.ReferenceIdeal.main_arg6) : FVec Ideal Cert.ReferenceIdeal.S512x512 .f32) Cert.ReferenceIdeal.Gen.transposes_S512x512_S512x512_1_0))
    (h10 : W (Proc.devRef .tc main_v10) = concatenate Cert.ReferenceIdeal.S450000 0 [⟨Cert.ReferenceIdeal.S400000, (shapeCast _ (extractStridedSlice Cert.ReferenceIdeal.S1x400000 ![0, 0] (M (Proc.devRef .tc Cert.ReferenceIdeal.main_arg1) : (⟨Cert.ReferenceIdeal.S2x400000, .i32⟩ : BufTy).Contents (Elt Ideal)) Cert.ReferenceIdeal.Gen.slices_S2x400000_S1x400000_0_0) Cert.ReferenceIdeal.Gen.shapeCasts_S1x400000_S400000)⟩, ⟨Cert.ReferenceIdeal.S50000, (iotaInDim Cert.ReferenceIdeal.S50000 32 0)⟩] Cert.ReferenceIdeal.Gen.concatenates_S400000_S50000_S450000_d0)
    (h13 : W (Proc.devRef .tc main_v13) = concatenate Cert.ReferenceIdeal.S450000 0 [⟨Cert.ReferenceIdeal.S400000, (shapeCast _ (extractStridedSlice Cert.ReferenceIdeal.S1x400000 ![1, 0] (M (Proc.devRef .tc Cert.ReferenceIdeal.main_arg1) : (⟨Cert.ReferenceIdeal.S2x400000, .i32⟩ : BufTy).Contents (Elt Ideal)) Cert.ReferenceIdeal.Gen.slices_S2x400000_S1x400000_1_0) Cert.ReferenceIdeal.Gen.shapeCasts_S1x400000_S400000)⟩, ⟨Cert.ReferenceIdeal.S50000, (iotaInDim Cert.ReferenceIdeal.S50000 32 0)⟩] Cert.ReferenceIdeal.Gen.concatenates_S400000_S50000_S450000_d0)
    (h2 : W (Proc.devRef .tc main_arg2) = (M (Proc.devRef .tc Cert.ReferenceIdeal.main_arg2))) (h3 : W (Proc.devRef .tc main_arg3) = (M (Proc.devRef .tc Cert.ReferenceIdeal.main_arg3)))
    (h7 : W (Proc.devRef .tc main_arg7) = (M (Proc.devRef .tc Cert.ReferenceIdeal.main_arg7))) (h8 : W (Proc.devRef .tc main_arg8) = (M (Proc.devRef .tc Cert.ReferenceIdeal.main_arg8))) :
    StableHlo.after restOps W (Proc.devRef .tc main_v124)
      = StableHlo.after (Cert.ReferenceIdeal.ValueP.ops (F := Ideal)) M (Proc.devRef .tc Cert.ReferenceIdeal.main_v123) := by
  simp only [restOps, hostOps1, List.drop_succ_cons, List.drop_zero, hostOps1_1, hostOps1_2, hostOps1_3, hostOps1_4,
    List.cons_append, List.nil_append, Cert.ReferenceIdeal.ValueP.ops]
  after_results_simp
  simp only [hb, hv, hc, h10, h13, h2, h3, h7, h8]
  rfl

end Cert.KernelIdeal.TailValue

end
-- ==== Proof.RefFold.lean ====
/-
  The reference's result buffer, two ways.

  The reference program is host lines only; after its run every buffer holds the fold of the lines' results over the
  launch contents. For the result buffer that fold is the lines' composed term of the arguments, the term its run is
  stated with: computing the fold line by line gives exactly that term.
-/
import proofs.«158807_j15814069584045_1_alg».proof.Proof.RefRun
import Idealize.ShloMosaic.Lib.StableHlo.Run
import Idealize.ShloMosaic.PureOps.Ideal

noncomputable section

namespace Cert.ReferenceIdeal.RefFold

open Cert.ReferenceIdeal Cert.ReferenceIdeal.Gen Cert.ReferenceIdeal.ValueP
open Idealize.ShloMosaic Idealize.ShloMosaic.TcCoe Idealize.SL.Sem Idealize.ShloMosaic.StableHlo

set_option maxRecDepth 8192 in
set_option maxHeartbeats 200000000 in
/-- The fold of the reference's lines over the launch contents, at the result buffer, is the composed term — at any
    float instance: nothing about the operations is used, only which line writes which buffer. -/
theorem ref_fold {F : FTy → Type} [FloatOps F] (m : (ℓ : Loc nD τ sig) → Buf (Elt F) ℓ) (c : Dev nD) :
    StableHlo.after (ops (F := F)) (launchContents m c) (Proc.devRef .tc main_v123) = res_main_v123 (F := F) m c := by
  after_results_simp <;> rfl <;> (unfold res_main_v123; rfl)

end Cert.ReferenceIdeal.RefFold

end
-- ==== Proof.Join.lean ====
/-
  The idealized kernel's result is the idealized reference's.

  After the grid the result array holds, entry (n, c), the sum over k of x(n, k) · Wt(k, c), where Wt is the three
  weight matrices joined along their rows and transposed (rounding to bf16 is the identity on extended reals). Its
  columns 0–511, 512–1023 and 1024–1535 are therefore the reference's three products x · Wⱼᵀ, entry by entry the
  same sums of the same products. Everything after that — 154 host lines in the kernel's program, 151 in the
  reference's — is the same sequence of operations on the same literals. The first ten of the kernel's lines cut the
  three column thirds out of the grid's result and build the two edge-endpoint lists (a row of the first edge array
  followed by the node numbers 0 … 49999); the remaining 144 read those five arrays and four of the arguments: equal
  leaves give equal results.
-/
import proofs.«158807_j15814069584045_1_alg».proof.Proof.FrameKI
import proofs.«158807_j15814069584045_1_alg».proof.Proof.RefRun
import proofs.«158807_j15814069584045_1_alg».proof.Proof.Product
import proofs.«158807_j15814069584045_1_alg».proof.Proof.ArrayKI
import proofs.«158807_j15814069584045_1_alg».proof.Proof.Tail
import proofs.«158807_j15814069584045_1_alg».proof.Proof.RefFold

set_option maxRecDepth 16384

noncomputable section

namespace Cert.KernelIdeal.TailValue

open Cert.KernelIdeal Cert.KernelIdeal.Gen
open Idealize.ShloMosaic Idealize.ShloMosaic.TcCoe Idealize.SL.Sem Idealize.ShloMosaic.StableHlo

/-! ## The first ten lines after the grid, read -/

/-- The first ten host lines after the grid. -/
abbrev preOps : List (HloOp τ sig (Elt Ideal)) := (hostOps1 (F := Ideal)).take 10

set_option maxHeartbeats 20000000 in
/-- They leave columns 0–511 of the grid's result in the first slice's buffer, -/
theorem pre_v4 (W0 : Valuation τ sig (Elt Ideal)) :
    StableHlo.after preOps W0 (Proc.devRef .tc main_v4)
      = extractStridedSlice S50000x512 ![0, 0] (W0 (Proc.devRef .tc main_v3) : (⟨S50000x1536, .f32⟩ : BufTy).Contents (Elt Ideal)) slices_S50000x1536_S50000x512_0_0 := by
  simp only [preOps, hostOps1, List.take_succ_cons, List.take_zero]
  after_results_simp

set_option maxHeartbeats 20000000 in
/-- columns 512–1023 in the second's, -/
theorem pre_v5 (W0 : Valuation τ sig (Elt Ideal)) :
    StableHlo.after preOps W0 (Proc.devRef .tc main_v5)
      = extractStridedSlice S50000x512 ![0, 512] (W0 (Proc.devRef .tc main_v3) : (⟨S50000x1536, .f32⟩ : BufTy).Contents (Elt Ideal)) slices_S50000x1536_S50000x512_0_512 := by
  simp only [preOps, hostOps1, List.take_succ_cons, List.take_zero]
  after_results_simp

set_option maxHeartbeats 20000000 in
/-- columns 1024–1535 in the third's, -/
theorem pre_v6 (W0 : Valuation τ sig (Elt Ideal)) :
    StableHlo.after preOps W0 (Proc.devRef .tc main_v6)
      = extractStridedSlice S50000x512 ![0, 1024] (W0 (Proc.devRef .tc main_v3) : (⟨S50000x1536, .f32⟩ : BufTy).Contents (Elt Ideal)) slices_S50000x1536_S50000x512_0_1024 := by
  simp only [preOps, hostOps1, List.take_succ_cons, List.take_zero]
  after_results_simp

set_option maxHeartbeats 20000000 in
/-- the sources of the bond edges followed by the node numbers, -/
theorem pre_v10 (W0 : Valuation τ sig (Elt Ideal)) :
    StableHlo.after preOps W0 (Proc.devRef .tc main_v10)
      = concatenate S450000 0 [⟨S400000, (shapeCast S400000 (extractStridedSlice S1x400000 ![0, 0] (W0 (Proc.devRef .tc main_arg1) : (⟨S2x400000, .i32⟩ : BufTy).Contents (Elt Ideal)) slices_S2x400000_S1x400000_0_0) shapeCasts_S1x400000_S400000)⟩, ⟨S50000, (iotaInDim S50000 32 0)⟩] concatenates_S400000_S50000_S450000_d0 := by
  simp only [preOps, hostOps1, List.take_succ_cons, List.take_zero]
  after_results_simp
  rfl

set_option maxHeartbeats 20000000 in
/-- and their targets followed by the node numbers; -/
theorem pre_v13 (W0 : Valuation τ sig (Elt Ideal)) :
    StableHlo.after preOps W0 (Proc.devRef .tc main_v13)
      = concatenate S450000 0 [⟨S400000, (shapeCast S400000 (extractStridedSlice S1x400000 ![1, 0] (W0 (Proc.devRef .tc main_arg1) : (⟨S2x400000, .i32⟩ : BufTy).Contents (Elt Ideal)) slices_S2x400000_S1x400000_1_0) shapeCasts_S1x400000_S400000)⟩, ⟨S50000, (iotaInDim S50000 32 0)⟩] concatenates_S400000_S50000_S450000_d0 := by
  simp only [preOps, hostOps1, List.take_succ_cons, List.take_zero]
  after_results_simp
  rfl

set_option maxHeartbeats 20000000 in
/-- they write no argument. -/
theorem pre_arg2 (W0 : Valuation τ sig (Elt Ideal)) :
    StableHlo.after preOps W0 (Proc.devRef .tc main_arg2) = W0 (Proc.devRef .tc main_arg2) := by
  simp only [preOps, hostOps1, List.take_succ_cons, List.take_zero]
  after_results_simp
set_option maxHeartbeats 20000000 in
theorem pre_arg3 (W0 : Valuation τ sig (Elt Ideal)) :
    StableHlo.after preOps W0 (Proc.devRef .tc main_arg3) = W0 (Proc.devRef .tc main_arg3) := by
  simp only [preOps, hostOps1, List.take_succ_cons, List.take_zero]
  after_results_simp
set_option maxHeartbeats 20000000 in
theorem pre_arg7 (W0 : Valuation τ sig (Elt Ideal)) :
    StableHlo.after preOps W0 (Proc.devRef .tc main_arg7) = W0 (Proc.devRef .tc main_arg7) := by
  simp only [preOps, hostOps1, List.take_succ_cons, List.take_zero]
  after_results_simp
set_option maxHeartbeats 20000000 in
theorem pre_arg8 (W0 : Valuation τ sig (Elt Ideal)) :
    StableHlo.after preOps W0 (Proc.devRef .tc main_arg8) = W0 (Proc.devRef .tc main_arg8) := by
  simp only [preOps, hostOps1, List.take_succ_cons, List.take_zero]
  after_results_simp

/-- All the lines after the grid are the first ten followed by the rest. -/
theorem tail_split : (Hand.tailOps (F := Ideal)).flatten = preOps ++ restOps := by
  show hostOps1 ++ (hostOps1_1 ++ (hostOps1_2 ++ (hostOps1_3 ++ (hostOps1_4 ++ []))))
    = List.take 10 hostOps1 ++ (List.drop 10 hostOps1 ++ (hostOps1_1 ++ (hostOps1_2 ++ (hostOps1_3 ++ hostOps1_4))))
  rw [List.append_nil, ← List.append_assoc (List.take 10 hostOps1), List.take_append_drop]

/-! ## From the grid's exit to the result -/

variable (m : (ℓ : Loc nD τ sig) → Buf (Elt Ideal) ℓ)

/-- What the lines after the grid start from: the grid's arrays as its write-backs left them, every other buffer as
    the grid found it. -/
abbrev exitVal (c : Dev nD) : Valuation τ sig (Elt Ideal) :=
  Pipeline.withArrays (cfgs 0).spec c (Hand.V0 m c) fun w => (Hand.dats m 0 c).arrAt w (cfgs 0).N

/-- There the grid's result array is the fused product of the first argument with the joined weights. -/
theorem exit_v3 (c : Dev nD) : exitVal m c (Proc.devRef .tc main_v3)
    = Product.fused (m ((c : Thread nD τ).loc main_arg0))
        (Product.wcatT (m ((c : Thread nD τ).loc main_arg4)) (m ((c : Thread nD τ).loc main_arg5)) (m ((c : Thread nD τ).loc main_arg6))) :=
  (Pipeline.withArrays_arr spec0 launch0.win.arr_inj c _ _ 2).trans (HandValue.final m c)

/-- And an argument the grid does not stage is as launched. -/
theorem exit_arg (c : Dev nD) (b : Ref sig .tc) (hb : b ∈ Hand.held) (h2 : b ≠ main_v2) (hne : ∀ w, Pipeline.arrRef spec0 w ≠ b) :
    exitVal m c (Proc.devRef .tc b) = m ((c : Thread nD τ).loc b) :=
  (Pipeline.withArrays_of_ne _ c (Hand.V0 m c) _ b hne).trans (Hand.V_of_arg m c b hb h2)

/-- The kernel's result buffer after the whole run is the reference's composed term of agreeing arguments. -/
theorem kernel_result (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (c : Dev nD) :
    Pipeline.afterTail₀ cfgs (Hand.dats m) 0 (Hand.V0 m) Hand.tailOps c main_v124
      = Cert.ReferenceIdeal.ValueP.res_main_v123 (F := Ideal) m' c := by
  obtain ⟨a0, a1, a2, a3, a4, a5, a6, a7, a8⟩ := hagree c
  unfold Pipeline.afterTail₀
  show StableHlo.after (Hand.tailOps (F := Ideal)).flatten (exitVal m c) (Proc.devRef .tc main_v124) = _
  rw [tail_split, StableHlo.after_append, ← Cert.ReferenceIdeal.RefFold.ref_fold m' c]
  refine tail_eq _ (launchContents m' c) ?_ ?_ ?_ ?_ ?_ ?_ ?_ ?_ ?_
  · rw [pre_v4, exit_v3]
    show _ = Host.dotGeneral (F := Ideal) (φ₁ := .f32) (φ₂ := .f32) Cert.ReferenceIdeal.dot_S50000x512_S512x512_S50000x512_1_0_0_1_n_n none
        (m' ((c.tc : Thread Cert.ReferenceIdeal.nD Cert.ReferenceIdeal.τ).loc Cert.ReferenceIdeal.main_arg0) : FVec Ideal Cert.ReferenceIdeal.S50000x512 .f32)
        (transpose Cert.ReferenceIdeal.S512x512 [1, 0] (m' ((c.tc : Thread Cert.ReferenceIdeal.nD Cert.ReferenceIdeal.τ).loc Cert.ReferenceIdeal.main_arg4) : FVec Ideal Cert.ReferenceIdeal.S512x512 .f32) Cert.ReferenceIdeal.Gen.transposes_S512x512_S512x512_1_0)
    rw [a0, a4]; exact Product.leaf0 _ _ _ _
  · rw [pre_v5, exit_v3]
    show _ = Host.dotGeneral (F := Ideal) (φ₁ := .f32) (φ₂ := .f32) Cert.ReferenceIdeal.dot_S50000x512_S512x512_S50000x512_1_0_0_1_n_n none
        (m' ((c.tc : Thread Cert.ReferenceIdeal.nD Cert.ReferenceIdeal.τ).loc Cert.ReferenceIdeal.main_arg0) : FVec Ideal Cert.ReferenceIdeal.S50000x512 .f32)
        (transpose Cert.ReferenceIdeal.S512x512 [1, 0] (m' ((c.tc : Thread Cert.ReferenceIdeal.nD Cert.ReferenceIdeal.τ).loc Cert.ReferenceIdeal.main_arg5) : FVec Ideal Cert.ReferenceIdeal.S512x512 .f32) Cert.ReferenceIdeal.Gen.transposes_S512x512_S512x512_1_0)
    rw [a0, a5]; exact Product.leaf1 _ _ _ _
  · rw [pre_v6, exit_v3]
    show _ = Host.dotGeneral (F := Ideal) (φ₁ := .f32) (φ₂ := .f32) Cert.ReferenceIdeal.dot_S50000x512_S512x512_S50000x512_1_0_0_1_n_n none
        (m' ((c.tc : Thread Cert.ReferenceIdeal.nD Cert.ReferenceIdeal.τ).loc Cert.ReferenceIdeal.main_arg0) : FVec Ideal Cert.ReferenceIdeal.S50000x512 .f32)
        (transpose Cert.ReferenceIdeal.S512x512 [1, 0] (m' ((c.tc : Thread Cert.ReferenceIdeal.nD Cert.ReferenceIdeal.τ).loc Cert.ReferenceIdeal.main_arg6) : FVec Ideal Cert.ReferenceIdeal.S512x512 .f32) Cert.ReferenceIdeal.Gen.transposes_S512x512_S512x512_1_0)
    rw [a0, a6]; exact Product.leaf2 _ _ _ _
  · rw [pre_v10, exit_arg m c main_arg1 (by decide) (by decide) (by decide)]
    show _ = concatenate Cert.ReferenceIdeal.S450000 0 [⟨Cert.ReferenceIdeal.S400000, (shapeCast _ (extractStridedSlice Cert.ReferenceIdeal.S1x400000 ![0, 0] (m' ((c.tc : Thread Cert.ReferenceIdeal.nD Cert.ReferenceIdeal.τ).loc Cert.ReferenceIdeal.main_arg1) : (⟨Cert.ReferenceIdeal.S2x400000, .i32⟩ : BufTy).Contents (Elt Ideal)) Cert.ReferenceIdeal.Gen.slices_S2x400000_S1x400000_0_0) Cert.ReferenceIdeal.Gen.shapeCasts_S1x400000_S400000)⟩, ⟨Cert.ReferenceIdeal.S50000, (iotaInDim Cert.ReferenceIdeal.S50000 32 0)⟩] Cert.ReferenceIdeal.Gen.concatenates_S400000_S50000_S450000_d0
    rw [a1]
  · rw [pre_v13, exit_arg m c main_arg1 (by decide) (by decide) (by decide)]
    show _ = concatenate Cert.ReferenceIdeal.S450000 0 [⟨Cert.ReferenceIdeal.S400000, (shapeCast _ (extractStridedSlice Cert.ReferenceIdeal.S1x400000 ![1, 0] (m' ((c.tc : Thread Cert.ReferenceIdeal.nD Cert.ReferenceIdeal.τ).loc Cert.ReferenceIdeal.main_arg1) : (⟨Cert.ReferenceIdeal.S2x400000, .i32⟩ : BufTy).Contents (Elt Ideal)) Cert.ReferenceIdeal.Gen.slices_S2x400000_S1x400000_1_0) Cert.ReferenceIdeal.Gen.shapeCasts_S1x400000_S400000)⟩, ⟨Cert.ReferenceIdeal.S50000, (iotaInDim Cert.ReferenceIdeal.S50000 32 0)⟩] Cert.ReferenceIdeal.Gen.concatenates_S400000_S50000_S450000_d0
    rw [a1]
  · rw [pre_arg2]; exact (exit_arg m c main_arg2 (by decide) (by decide) (by decide)).trans a2.symm
  · rw [pre_arg3]; exact (exit_arg m c main_arg3 (by decide) (by decide) (by decide)).trans a3.symm
  · rw [pre_arg7]; exact (exit_arg m c main_arg7 (by decide) (by decide) (by decide)).trans a7.symm
  · rw [pre_arg8]; exact (exit_arg m c main_arg8 (by decide) (by decide) (by decide)).trans a8.symm

/-- The whole run of the idealized kernel, read: the result buffer at the reference's term of agreeing arguments, the
    nine arguments as launched. -/
theorem run_value (ρ : Dev nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (defs (F := Ideal)) (onTc (τ := τ) (main (F := Ideal))) ⟨m, fun _ => 0, ρ⟩ (fun r => ∀ c : Dev nD,
      r.2.mem ((c.tc : Thread nD τ).loc main_v124) = Cert.ReferenceIdeal.ValueP.res_main_v123 (F := Ideal) m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v124 (Pipeline.mem_restRefs_of main_v124 (by decide) (by decide))).trans (kernel_result m m' hagree c),
     ((h c).1 0).trans (((Hand.dats m 0 c).arrAt_in 0 rfl _).trans ((Hand.A_eq m c 0).trans (Hand.V_of_arg m c main_arg0 (by decide) (by decide)))),
     Hand.kept_rest m c main_arg1 (by decide) (by decide) (by decide) r h (Pipeline.mem_restRefs_of main_arg1 (by decide) (by decide)),
     Hand.kept_rest m c main_arg2 (by decide) (by decide) (by decide) r h (Pipeline.mem_restRefs_of main_arg2 (by decide) (by decide)),
     Hand.kept_rest m c main_arg3 (by decide) (by decide) (by decide) r h (Pipeline.mem_restRefs_of main_arg3 (by decide) (by decide)),
     Hand.kept_rest m c main_arg4 (by decide) (by decide) (by decide) r h (Pipeline.mem_restRefs_of main_arg4 (by decide) (by decide)),
     Hand.kept_rest m c main_arg5 (by decide) (by decide) (by decide) r h (Pipeline.mem_restRefs_of main_arg5 (by decide) (by decide)),
     Hand.kept_rest m c main_arg6 (by decide) (by decide) (by decide) r h (Pipeline.mem_restRefs_of main_arg6 (by decide) (by decide)),
     Hand.kept_rest m c main_arg7 (by decide) (by decide) (by decide) r h (Pipeline.mem_restRefs_of main_arg7 (by decide) (by decide)),
     Hand.kept_rest m c main_arg8 (by decide) (by decide) (by decide) r h (Pipeline.mem_restRefs_of main_arg8 (by decide) (by decide))⟩)
    (Hand.run_main m ρ)

end Cert.KernelIdeal.TailValue

end
-- ==== Proof.lean ====
/-
  The certificate: a graph convolution whose three dense projections are fused into one matrix-unit product.

  The kernel joins the three weight matrices along their rows, transposes and rounds them to bf16, and multiplies
  the node features by the joined matrix on a grid of 50 row blocks; the three projections are then column thirds of
  the product, and the neighbourhood sums, the mean, the attention weights and the bias follow on the host exactly as
  in the reference, which computes the three projections one by one. Read on the extended reals — roundings the
  identity, every operation exact — column third j of the fused product is, entry by entry, the same sum of the same
  products as the reference's j-th projection, so the two programs end with equal results whatever the inputs hold:
  the finiteness of the inputs is never used. The ideal pass rewrote nothing, so the kernel's idealization is its own
  text. Each program terminates without a fault and leaves its nine arguments as launched.
-/
import proofs.«158807_j15814069584045_1_alg».proof.Defs
import proofs.«158807_j15814069584045_1_alg».proof.Proof.Gen.Kernel
import proofs.«158807_j15814069584045_1_alg».proof.Proof.Gen.KernelIdeal
import proofs.«158807_j15814069584045_1_alg».proof.Proof.Gen.ReferenceIdeal
import proofs.«158807_j15814069584045_1_alg».proof.Proof.Gen.Pre_finite_inputs
import proofs.«158807_j15814069584045_1_alg».proof.Proof.FrameK
import proofs.«158807_j15814069584045_1_alg».proof.Proof.FrameKI
import proofs.«158807_j15814069584045_1_alg».proof.Proof.RefRun
import proofs.«158807_j15814069584045_1_alg».proof.Proof.Join
import Idealize.ShloMosaic.Adequacy
import Idealize.ShloMosaic.Init

noncomputable section

namespace Cert.Proof

open Idealize.ShloMosaic Idealize.SL.Sem

/-- The word-level kernel runs to the end and keeps its arguments. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- The reference is host lines only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- From memories agreeing on the arguments both idealized programs end with the same result: the reference's composed
    term, which the kernel's fused product and shared host lines also reach. -/
theorem algebraic : Cert.algebraic_KernelIdeal_ReferenceIdeal := by
  intro m ρ m' ρ' _ hagree
  exact ⟨fun c => Cert.ReferenceIdeal.ValueP.res_main_v123 (F := Ideal) m' c,
    Cert.KernelIdeal.TailValue.run_value m ρ m' hagree, Cert.ReferenceIdeal.ValueP.run (F := Ideal) m' ρ'⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
